-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256x7 : Shape := ⟨3, ![32768, 256, 7]⟩
abbrev S7x12 : Shape := ⟨2, ![7, 12]⟩
abbrev S12 : Shape := ⟨1, ![12]⟩
abbrev S12x12 : Shape := ⟨2, ![12, 12]⟩
abbrev S12x6 : Shape := ⟨2, ![12, 6]⟩
abbrev S6 : Shape := ⟨1, ![6]⟩
abbrev S6x1 : Shape := ⟨2, ![6, 1]⟩
abbrev S1 : Shape := ⟨1, ![1]⟩
abbrev S_ : Shape := ⟨0, ![]⟩

class Facts : Prop where
  bcast_S_S32768x256x7 : S_.BroadcastsInDim S32768x256x7 (![] : Fin 0 → Fin S32768x256x7.rank)
  reducesTo_S32768x256x7_S_d0_1_2 : S32768x256x7.ReducesTo [0, 1, 2] S_
  h_S_ : 0 < S_.numel
  bcast_S_S7x12 : S_.BroadcastsInDim S7x12 (![] : Fin 0 → Fin S7x12.rank)
  reducesTo_S7x12_S_d0_1 : S7x12.ReducesTo [0, 1] S_
  bcast_S_S12 : S_.BroadcastsInDim S12 (![] : Fin 0 → Fin S12.rank)
  reducesTo_S12_S_d0 : S12.ReducesTo [0] S_
  bcast_S_S12x12 : S_.BroadcastsInDim S12x12 (![] : Fin 0 → Fin S12x12.rank)
  reducesTo_S12x12_S_d0_1 : S12x12.ReducesTo [0, 1] S_
  bcast_S_S12x6 : S_.BroadcastsInDim S12x6 (![] : Fin 0 → Fin S12x6.rank)
  reducesTo_S12x6_S_d0_1 : S12x6.ReducesTo [0, 1] S_
  bcast_S_S6 : S_.BroadcastsInDim S6 (![] : Fin 0 → Fin S6.rank)
  reducesTo_S6_S_d0 : S6.ReducesTo [0] S_
  bcast_S_S6x1 : S_.BroadcastsInDim S6x1 (![] : Fin 0 → Fin S6x1.rank)
  reducesTo_S6x1_S_d0_1 : S6x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S12x6 .f32) (main_arg12 : FVec F S6 .f32) (main_arg13 : FVec F S6x1 .f32) (main_arg14 : FVec F S1 .f32) (main_v48 : IVec S_ 1) (main_v49 : FVec F S12 .f32) (main_v50 : FVec F S12 .f32) : IVec S_ 1 :=
  let main_v51 : IVec S12 1 := cmpf .olt main_v49 main_v50
  let main_c_19 : IVec S_ 1 := constantI S_ 1 1#1
  let main_v52 : IVec S_ 1 := (fun x v => Host.reduce IntOp.andi x v reducesTo_S12_S_d0 h_S_) main_v51 main_c_19
  let main_v53 : IVec S_ 1 := andi main_v48 main_v52
  let main_v54 : FVec F S12x6 .f32 := Host.absf main_arg11
  let main_cst_20 : FVec F S_ .f32 := constant S_ .f32 0x7F800000#32
  let main_v55 : FVec F S12x6 .f32 := broadcastInDim S12x6 ![] bcast_S_S12x6 main_cst_20
  let main_v56 : IVec S12x6 1 := cmpf .olt main_v54 main_v55
  let main_c_21 : IVec S_ 1 := constantI S_ 1 1#1
  let main_v57 : IVec S_ 1 := (fun x v => Host.reduce IntOp.andi x v reducesTo_S12x6_S_d0_1 h_S_) main_v56 main_c_21
  let main_v58 : IVec S_ 1 := andi main_v53 main_v57
  let main_v59 : FVec F S6 .f32 := Host.absf main_arg12
  let main_cst_22 : FVec F S_ .f32 := constant S_ .f32 0x7F800000#32
  let main_v60 : FVec F S6 .f32 := broadcastInDim S6 ![] bcast_S_S6 main_cst_22
  let main_v61 : IVec S6 1 := cmpf .olt main_v59 main_v60
  let main_c_23 : IVec S_ 1 := constantI S_ 1 1#1
  let main_v62 : IVec S_ 1 := (fun x v => Host.reduce IntOp.andi x v reducesTo_S6_S_d0 h_S_) main_v61 main_c_23
  let main_v63 : IVec S_ 1 := andi main_v58 main_v62
  let main_v64 : FVec F S6x1 .f32 := Host.absf main_arg13
  let main_cst_24 : FVec F S_ .f32 := constant S_ .f32 0x7F800000#32
  let main_v65 : FVec F S6x1 .f32 := broadcastInDim S6x1 ![] bcast_S_S6x1 main_cst_24
  let main_v66 : IVec S6x1 1 := cmpf .olt main_v64 main_v65
  let main_c_25 : IVec S_ 1 := constantI S_ 1 1#1
  let main_v67 : IVec S_ 1 := (fun x v => Host.reduce IntOp.andi x v reducesTo_S6x1_S_d0_1 h_S_) main_v66 main_c_25
  fn_part4 (F := F) main_arg14 main_v63 main_v67

def fn_part2 {F : FTy → Type} [FloatOps F] (main_arg7 : FVec F S12x12 .f32) (main_arg8 : FVec F S12 .f32) (main_arg9 : FVec F S12x12 .f32) (main_arg10 : FVec F S12 .f32) (main_arg11 : FVec F S12x6 .f32) (main_arg12 : FVec F S6 .f32) (main_arg13 : FVec F S6x1 .f32) (main_arg14 : FVec F S1 .f32) (main_v33 : IVec S_ 1) : IVec S_ 1 :=
  let main_v34 : FVec F S12x12 .f32 := Host.absf main_arg7
  let main_cst_12 : FVec F S_ .f32 := constant S_ .f32 0x7F800000#32
  let main_v35 : FVec F S12x12 .f32 := broadcastInDim S12x12 ![] bcast_S_S12x12 main_cst_12
  let main_v36 : IVec S12x12 1 := cmpf .olt main_v34 main_v35
  let main_c_13 : IVec S_ 1 := constantI S_ 1 1#1
  let main_v37 : IVec S_ 1 := (fun x v => Host.reduce IntOp.andi x v reducesTo_S12x12_S_d0_1 h_S_) main_v36 main_c_13
  let main_v38 : IVec S_ 1 := andi main_v33 main_v37
  let main_v39 : FVec F S12 .f32 := Host.absf main_arg8
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  let main_v44 : FVec F S12x12 .f32 := Host.absf main_arg9
  let main_cst_16 : FVec F S_ .f32 := constant S_ .f32 0x7F800000#32
  let main_v45 : FVec F S12x12 .f32 := broadcastInDim S12x12 ![] bcast_S_S12x12 main_cst_16
  let main_v46 : IVec S12x12 1 := cmpf .olt main_v44 main_v45
  let main_c_17 : IVec S_ 1 := constantI S_ 1 1#1
  let main_v47 : IVec S_ 1 := (fun x v => Host.reduce IntOp.andi x v reducesTo_S12x12_S_d0_1 h_S_) main_v46 main_c_17
  let main_v48 : IVec S_ 1 := andi main_v43 main_v47
  let main_v49 : FVec F S12 .f32 := Host.absf main_arg10
  let main_cst_18 : FVec F S_ .f32 := constant S_ .f32 0x7F800000#32
  let main_v50 : FVec F S12 .f32 := broadcastInDim S12 ![] bcast_S_S12 main_cst_18
  fn_part3 (F := F) main_arg11 main_arg12 main_arg13 main_arg14 main_v48 main_v49 main_v50

def fn_part1 {F : FTy → Type} [FloatOps F] (main_arg4 : FVec F S12 .f32) (main_arg5 : FVec F S12x12 .f32) (main_arg6 : FVec F S12 .f32) (main_arg7 : FVec F S12x12 .f32) (main_arg8 : FVec F S12 .f32) (main_arg9 : FVec F S12x12 .f32) (main_arg10 : FVec F S12 .f32) (main_arg11 : FVec F S12x6 .f32) (main_arg12 : FVec F S6 .f32) (main_arg13 : FVec F S6x1 .f32) (main_arg14 : FVec F S1 .f32) (main_v13 : IVec S_ 1) (main_v16 : IVec S12x12 1) : IVec S_ 1 :=
  let main_c_5 : IVec S_ 1 := constantI S_ 1 1#1
  let main_v17 : IVec S_ 1 := (fun x v => Host.reduce IntOp.andi x v reducesTo_S12x12_S_d0_1 h_S_) main_v16 main_c_5
  let main_v18 : IVec S_ 1 := andi main_v13 main_v17
  let main_v19 : FVec F S12 .f32 := Host.absf main_arg4
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  let main_v24 : FVec F S12x12 .f32 := Host.absf main_arg5
  let main_cst_8 : FVec F S_ .f32 := constant S_ .f32 0x7F800000#32
  let main_v25 : FVec F S12x12 .f32 := broadcastInDim S12x12 ![] bcast_S_S12x12 main_cst_8
  let main_v26 : IVec S12x12 1 := cmpf .olt main_v24 main_v25
  let main_c_9 : IVec S_ 1 := constantI S_ 1 1#1
  let main_v27 : IVec S_ 1 := (fun x v => Host.reduce IntOp.andi x v reducesTo_S12x12_S_d0_1 h_S_) main_v26 main_c_9
  let main_v28 : IVec S_ 1 := andi main_v23 main_v27
  let main_v29 : FVec F S12 .f32 := Host.absf main_arg6
  let main_cst_10 : FVec F S_ .f32 := constant S_ .f32 0x7F800000#32
  let main_v30 : FVec F S12 .f32 := broadcastInDim S12 ![] bcast_S_S12 main_cst_10
  let main_v31 : IVec S12 1 := cmpf .olt main_v29 main_v30
  let main_c_11 : IVec S_ 1 := constantI S_ 1 1#1
  let main_v32 : IVec S_ 1 := (fun x v => Host.reduce IntOp.andi x v reducesTo_S12_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S32768x256x7 .f32) (main_arg1 : FVec F S7x12 .f32) (main_arg2 : FVec F S12 .f32) (main_arg3 : FVec F S12x12 .f32) (main_arg4 : FVec F S12 .f32) (main_arg5 : FVec F S12x12 .f32) (main_arg6 : FVec F S12 .f32) (main_arg7 : FVec F S12x12 .f32) (main_arg8 : FVec F S12 .f32) (main_arg9 : FVec F S12x12 .f32) (main_arg10 : FVec F S12 .f32) (main_arg11 : FVec F S12x6 .f32) (main_arg12 : FVec F S6 .f32) (main_arg13 : FVec F S6x1 .f32) (main_arg14 : FVec F S1 .f32) : IVec S_ 1 :=
  let main_v0 : FVec F S32768x256x7 .f32 := Host.absf main_arg0
  let main_cst : FVec F S_ .f32 := constant S_ .f32 0x7F800000#32
  let main_v1 : FVec F S32768x256x7 .f32 := broadcastInDim S32768x256x7 ![] bcast_S_S32768x256x7 main_cst
  let main_v2 : IVec S32768x256x7 1 := cmpf .olt main_v0 main_v1
  let main_c : IVec S_ 1 := constantI S_ 1 1#1
  let main_v3 : IVec S_ 1 := (fun x v => Host.reduce IntOp.andi x v reducesTo_S32768x256x7_S_d0_1_2 h_S_) main_v2 main_c
  let main_v4 : FVec F S7x12 .f32 := Host.absf main_arg1
  let main_cst_0 : FVec F S_ .f32 := constant S_ .f32 0x7F800000#32
  let main_v5 : FVec F S7x12 .f32 := broadcastInDim S7x12 ![] bcast_S_S7x12 main_cst_0
  let main_v6 : IVec S7x12 1 := cmpf .olt main_v4 main_v5
  let main_c_1 : IVec S_ 1 := constantI S_ 1 1#1
  let main_v7 : IVec S_ 1 := (fun x v => Host.reduce IntOp.andi x v reducesTo_S7x12_S_d0_1 h_S_) main_v6 main_c_1
  let main_v8 : IVec S_ 1 := andi main_v3 main_v7
  let main_v9 : FVec F S12 .f32 := Host.absf main_arg2
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_v14 : FVec F S12x12 .f32 := Host.absf main_arg3
  let main_cst_4 : FVec F S_ .f32 := constant S_ .f32 0x7F800000#32
  let main_v15 : FVec F S12x12 .f32 := broadcastInDim S12x12 ![] bcast_S_S12x12 main_cst_4
  let main_v16 : IVec S12x12 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S32768x256x7 : Shape := ⟨3, ![32768, 256, 7]⟩
abbrev S7x12 : Shape := ⟨2, ![7, 12]⟩
abbrev S12 : Shape := ⟨1, ![12]⟩
abbrev S12x12 : Shape := ⟨2, ![12, 12]⟩
abbrev S12x6 : Shape := ⟨2, ![12, 6]⟩
abbrev S6 : Shape := ⟨1, ![6]⟩
abbrev S6x1 : Shape := ⟨2, ![6, 1]⟩
abbrev S1 : Shape := ⟨1, ![1]⟩
abbrev S8388608x7 : Shape := ⟨2, ![8388608, 7]⟩
abbrev S8388608x1 : Shape := ⟨2, ![8388608, 1]⟩
abbrev S131072x7 : Shape := ⟨2, ![131072, 7]⟩
abbrev S131072x1 : Shape := ⟨2, ![131072, 1]⟩
abbrev S131072x12 : Shape := ⟨2, ![131072, 12]⟩
abbrev S1x12 : Shape := ⟨2, ![1, 12]⟩
abbrev S131072x6 : Shape := ⟨2, ![131072, 6]⟩
abbrev S1x6 : Shape := ⟨2, ![1, 6]⟩
abbrev S1x1 : Shape := ⟨2, ![1, 1]⟩
abbrev S32768x256 : Shape := ⟨2, ![32768, 256]⟩

abbrev nBuf : Space → Nat
  | .hbm => 18
  | .vmem => 18
  | .smem => 0
  | _ => 0

abbrev bufTy : (tb : Table) → Fin (tcTables nBuf tb) → BufTy
  | .hbm, ⟨0, _⟩ => ⟨S32768x256x7, .f32⟩
  | .hbm, ⟨1, _⟩ => ⟨S7x12, .f32⟩
  | .hbm, ⟨2, _⟩ => ⟨S12, .f32⟩
  | .hbm, ⟨3, _⟩ => ⟨S12x12, .f32⟩
  | .hbm, ⟨4, _⟩ => ⟨S12, .f32⟩
  | .hbm, ⟨5, _⟩ => ⟨S12x12, .f32⟩
  | .hbm, ⟨6, _⟩ => ⟨S12, .f32⟩
  | .hbm, ⟨7, _⟩ => ⟨S12x12, .f32⟩
  | .hbm, ⟨8, _⟩ => ⟨S12, .f32⟩
  | .hbm, ⟨9, _⟩ => ⟨S12x12, .f32⟩
  | .hbm, ⟨10, _⟩ => ⟨S12, .f32⟩
  | .hbm, ⟨11, _⟩ => ⟨S12x6, .f32⟩
  | .hbm, ⟨12, _⟩ => ⟨S6, .f32⟩
  | .hbm, ⟨13, _⟩ => ⟨S6x1, .f32⟩
  | .hbm, ⟨14, _⟩ => ⟨S1, .f32⟩
  | .hbm, ⟨15, _⟩ => ⟨S8388608x7, .f32⟩
  | .hbm, ⟨16, _⟩ => ⟨S8388608x1, .f32⟩
  | .hbm, ⟨17, _⟩ => ⟨S32768x256, .f32⟩
  | .local _ .vmem, ⟨0, _⟩ => ⟨S131072x7, .f32⟩
  | .local _ .vmem, ⟨1, _⟩ => ⟨S131072x7, .f32⟩
  | .local _ .vmem, ⟨2, _⟩ => ⟨S7x12, .f32⟩
  | .local _ .vmem, ⟨3, _⟩ => ⟨S12, .f32⟩
  | .local _ .vmem, ⟨4, _⟩ => ⟨S12x12, .f32⟩
  | .local _ .vmem, ⟨5, _⟩ => ⟨S12, .f32⟩
  | .local _ .vmem, ⟨6, _⟩ => ⟨S12x12, .f32⟩
  | .local _ .vmem, ⟨7, _⟩ => ⟨S12, .f32⟩
  | .local _ .vmem, ⟨8, _⟩ => ⟨S12x12, .f32⟩
  | .local _ .vmem, ⟨9, _⟩ => ⟨S12, .f32⟩
  | .local _ .vmem, ⟨10, _⟩ => ⟨S12x12, .f32⟩
  | .local _ .vmem, ⟨11, _⟩ => ⟨S12, .f32⟩
  | .local _ .vmem, ⟨12, _⟩ => ⟨S12x6, .f32⟩
  | .local _ .vmem, ⟨13, _⟩ => ⟨S6, .f32⟩
  | .local _ .vmem, ⟨14, _⟩ => ⟨S6x1, .f32⟩
  | .local _ .vmem, ⟨15, _⟩ => ⟨S1, .f32⟩
  | .local _ .vmem, ⟨16, _⟩ => ⟨S131072x1, .f32⟩
  | .local _ .vmem, ⟨17, _⟩ => ⟨S131072x1, .f32⟩
  | _, _ => ⟨S32768x256x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S131072x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x12 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S12x12 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S12 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S12x12 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S12x6 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S6x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S131072x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  shapeCasts_S32768x256x7_S8388608x7 : S32768x256x7.ShapeCasts S8388608x7
  inb_S131072x7_S131072x7_0_0 : ∀ a, (![0, 0] : Fin 2 → Nat) a + S131072x7.size a ≤ S131072x7.size a
  h_S131072x7 : 0 < S131072x7.numel
  shapeCasts_S131072x7_S131072x7 : S131072x7.ShapeCasts S131072x7
  inb_S7x12_S7x12_0_0 : ∀ a, (![0, 0] : Fin 2 → Nat) a + S7x12.size a ≤ S7x12.size a
  h_S7x12 : 0 < S7x12.numel
  inb_S12_S12_0 : ∀ a, (![0] : Fin 1 → Nat) a + S12.size a ≤ S12.size a
  h_S12 : 0 < S12.numel
  shapeCasts_S12_S1x12 : S12.ShapeCasts S1x12
  broadcasts_S1x12_S131072x12 : S1x12.Broadcasts S131072x12
  inb_S12x12_S12x12_0_0 : ∀ a, (![0, 0] : Fin 2 → Nat) a + S12x12.size a ≤ S12x12.size a
  h_S12x12 : 0 < S12x12.numel
  inb_S12x6_S12x6_0_0 : ∀ a, (![0, 0] : Fin 2 → Nat) a + S12x6.size a ≤ S12x6.size a
  h_S12x6 : 0 < S12x6.numel
  inb_S6_S6_0 : ∀ a, (![0] : Fin 1 → Nat) a + S6.size a ≤ S6.size a
  h_S6 : 0 < S6.numel
  shapeCasts_S6_S1x6 : S6.ShapeCasts S1x6
  broadcasts_S1x6_S131072x6 : S1x6.Broadcasts S131072x6
  inb_S6x1_S6x1_0_0 : ∀ a, (![0, 0] : Fin 2 → Nat) a + S6x1.size a ≤ S6x1.size a
  h_S6x1 : 0 < S6x1.numel
  inb_S1_S1_0 : ∀ a, (![0] : Fin 1 → Nat) a + S1.size a ≤ S1.size a
  h_S1 : 0 < S1.numel
  shapeCasts_S1_S1x1 : S1.ShapeCasts S1x1
  broadcasts_S1x1_S131072x1 : S1x1.Broadcasts S131072x1
  inb_S131072x1_S131072x1_0_0 : ∀ a, (![0, 0] : Fin 2 → Nat) a + S131072x1.size a ≤ S131072x1.size a
  h_S131072x1 : 0 < S131072x1.numel
  shapeCasts_S8388608x1_S32768x256 : S8388608x1.ShapeCasts S32768x256
  dot_S131072x7_S7x12_S131072x12_1_0_0_1_n_n_wf : DotDims.WF S131072x7 S7x12 S131072x12 [1] [0] [0] [1] [] []
  dot_S131072x12_S12x12_S131072x12_1_0_0_1_n_n_wf : DotDims.WF S131072x12 S12x12 S131072x12 [1] [0] [0] [1] [] []
  dot_S131072x12_S12x6_S131072x6_1_0_0_1_n_n_wf : DotDims.WF S131072x12 S12x6 S131072x6 [1] [0] [0] [1] [] []
  dot_S131072x6_S6x1_S131072x1_1_0_0_1_n_n_wf : DotDims.WF S131072x6 S6x1 S131072x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S131072x7.size a ≤ S8388608x7.size a
  hwx0_0 : ∀ i : grid0.Coords, EltTy.bits .f32 = 32 ∨ (Rect.block (s := S8388608x7) S131072x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x12.size a ≤ S7x12.size a
  hwx0_1 : ∀ i : grid0.Coords, EltTy.bits .f32 = 32 ∨ (Rect.block (s := S7x12) S7x12.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S12.size a ≤ S12.size a
  hwx0_2 : ∀ i : grid0.Coords, EltTy.bits .f32 = 32 ∨ (Rect.block (s := S12) S12.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S12x12.size a ≤ S12x12.size a
  hwx0_3 : ∀ i : grid0.Coords, EltTy.bits .f32 = 32 ∨ (Rect.block (s := S12x12) S12x12.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S12.size a ≤ S12.size a
  hwx0_4 : ∀ i : grid0.Coords, EltTy.bits .f32 = 32 ∨ (Rect.block (s := S12) S12.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12x12.size a ≤ S12x12.size a
  hwx0_5 : ∀ i : grid0.Coords, EltTy.bits .f32 = 32 ∨ (Rect.block (s := S12x12) S12x12.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S12.size a ≤ S12.size a
  hwx0_6 : ∀ i : grid0.Coords, EltTy.bits .f32 = 32 ∨ (Rect.block (s := S12) S12.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S12x12.size a ≤ S12x12.size a
  hwx0_7 : ∀ i : grid0.Coords, EltTy.bits .f32 = 32 ∨ (Rect.block (s := S12x12) S12x12.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S12.size a ≤ S12.size a
  hwx0_8 : ∀ i : grid0.Coords, EltTy.bits .f32 = 32 ∨ (Rect.block (s := S12) S12.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S12x12.size a ≤ S12x12.size a
  hwx0_9 : ∀ i : grid0.Coords, EltTy.bits .f32 = 32 ∨ (Rect.block (s := S12x12) S12x12.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S12.size a ≤ S12.size a
  hwx0_10 : ∀ i : grid0.Coords, EltTy.bits .f32 = 32 ∨ (Rect.block (s := S12) S12.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S12x6.size a ≤ S12x6.size a
  hwx0_11 : ∀ i : grid0.Coords, EltTy.bits .f32 = 32 ∨ (Rect.block (s := S12x6) S12x6.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S6.size a ≤ S6.size a
  hwx0_12 : ∀ i : grid0.Coords, EltTy.bits .f32 = 32 ∨ (Rect.block (s := S6) S6.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S6x1.size a ≤ S6x1.size a
  hwx0_13 : ∀ i : grid0.Coords, EltTy.bits .f32 = 32 ∨ (Rect.block (s := S6x1) S6x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S131072x1.size a ≤ S8388608x1.size a
  hwx0_15 : ∀ i : grid0.Coords, EltTy.bits .f32 = 32 ∨ (Rect.block (s := S8388608x1) S131072x1.size (cc0_transform_15 i) (hinb0_15 i)).WholeWords (EltTy.packing .f32)

variable [Facts₀]

def dot_S131072x7_S7x12_S131072x12_1_0_0_1_n_n : DotDims S131072x7 S7x12 S131072x12 where
  lhsContracting := [1]
  rhsContracting := [0]
  lhsNonContracting := [0]
  rhsNonContracting := [1]
  lhsBatch := []
  rhsBatch := []
  wf := dot_S131072x7_S7x12_S131072x12_1_0_0_1_n_n_wf
def dot_S131072x12_S12x12_S131072x12_1_0_0_1_n_n : DotDims S131072x12 S12x12 S131072x12 where
  lhsContracting := [1]
  rhsContracting := [0]
  lhsNonContracting := [0]
  rhsNonContracting := [1]
  lhsBatch := []
  rhsBatch := []
  wf := dot_S131072x12_S12x12_S131072x12_1_0_0_1_n_n_wf
def dot_S131072x12_S12x6_S131072x6_1_0_0_1_n_n : DotDims S131072x12 S12x6 S131072x6 where
  lhsContracting := [1]
  rhsContracting := [0]
  lhsNonContracting := [0]
  rhsNonContracting := [1]
  lhsBatch := []
  rhsBatch := []
  wf := dot_S131072x12_S12x6_S131072x6_1_0_0_1_n_n_wf
def dot_S131072x6_S6x1_S131072x1_1_0_0_1_n_n : DotDims S131072x6 S6x1 S131072x1 where
  lhsContracting := [1]
  rhsContracting := [0]
  lhsNonContracting := [0]
  rhsNonContracting := [1]
  lhsBatch := []
  rhsBatch := []
  wf := dot_S131072x6_S6x1_S131072x1_1_0_0_1_n_n_wf

abbrev win0_0 : Pipeline.Window sig grid0 :=
  Pipeline.Window.ofSpec (Memref.whole main_v0) S131072x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S7x12.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S12.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S12x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S12.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S12x12.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S12.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S12x12.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S12.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S12x12.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S12.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S12x6.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S6.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S6x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v1) S131072x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S32768x256x7 : Shape := ⟨3, ![32768, 256, 7]⟩
abbrev S7x12 : Shape := ⟨2, ![7, 12]⟩
abbrev S12 : Shape := ⟨1, ![12]⟩
abbrev S12x12 : Shape := ⟨2, ![12, 12]⟩
abbrev S12x6 : Shape := ⟨2, ![12, 6]⟩
abbrev S6 : Shape := ⟨1, ![6]⟩
abbrev S6x1 : Shape := ⟨2, ![6, 1]⟩
abbrev S1 : Shape := ⟨1, ![1]⟩
abbrev S8388608x7 : Shape := ⟨2, ![8388608, 7]⟩
abbrev S8388608x12 : Shape := ⟨2, ![8388608, 12]⟩
abbrev S1x12 : Shape := ⟨2, ![1, 12]⟩
abbrev S_ : Shape := ⟨0, ![]⟩
abbrev S8388608x6 : Shape := ⟨2, ![8388608, 6]⟩
abbrev S1x6 : Shape := ⟨2, ![1, 6]⟩
abbrev S8388608x1 : Shape := ⟨2, ![8388608, 1]⟩
abbrev S1x1 : Shape := ⟨2, ![1, 1]⟩
abbrev S32768x256 : Shape := ⟨2, ![32768, 256]⟩

abbrev nBuf : Space → Nat
  | .hbm => 57
  | .vmem => 0
  | .smem => 0
  | _ => 0

abbrev bufTy : (tb : Table) → Fin (tcTables nBuf tb) → BufTy
  | .hbm, ⟨0, _⟩ => ⟨S32768x256x7, .f32⟩
  | .hbm, ⟨1, _⟩ => ⟨S7x12, .f32⟩
  | .hbm, ⟨2, _⟩ => ⟨S12, .f32⟩
  | .hbm, ⟨3, _⟩ => ⟨S12x12, .f32⟩
  | .hbm, ⟨4, _⟩ => ⟨S12, .f32⟩
  | .hbm, ⟨5, _⟩ => ⟨S12x12, .f32⟩
  | .hbm, ⟨6, _⟩ => ⟨S12, .f32⟩
  | .hbm, ⟨7, _⟩ => ⟨S12x12, .f32⟩
  | .hbm, ⟨8, _⟩ => ⟨S12, .f32⟩
  | .hbm, ⟨9, _⟩ => ⟨S12x12, .f32⟩
  | .hbm, ⟨10, _⟩ => ⟨S12, .f32⟩
  | .hbm, ⟨11, _⟩ => ⟨S12x6, .f32⟩
  | .hbm, ⟨12, _⟩ => ⟨S6, .f32⟩
  | .hbm, ⟨13, _⟩ => ⟨S6x1, .f32⟩
  | .hbm, ⟨14, _⟩ => ⟨S1, .f32⟩
  | .hbm, ⟨15, _⟩ => ⟨S8388608x7, .f32⟩
  | .hbm, ⟨16, _⟩ => ⟨S8388608x12, .f32⟩
  | .hbm, ⟨17, _⟩ => ⟨S1x12, .f32⟩
  | .hbm, ⟨18, _⟩ => ⟨S8388608x12, .f32⟩
  | .hbm, ⟨19, _⟩ => ⟨S8388608x12, .f32⟩
  | .hbm, ⟨20, _⟩ => ⟨S8388608x12, .f32⟩
  | .hbm, ⟨21, _⟩ => ⟨S1x12, .f32⟩
  | .hbm, ⟨22, _⟩ => ⟨S8388608x12, .f32⟩
  | .hbm, ⟨23, _⟩ => ⟨S8388608x12, .f32⟩
  | .hbm, ⟨24, _⟩ => ⟨S_, .f32⟩
  | .hbm, ⟨25, _⟩ => ⟨S8388608x12, .f32⟩
  | .hbm, ⟨26, _⟩ => ⟨S8388608x12, .f32⟩
  | .hbm, ⟨27, _⟩ => ⟨S8388608x12, .f32⟩
  | .hbm, ⟨28, _⟩ => ⟨S1x12, .f32⟩
  | .hbm, ⟨29, _⟩ => ⟨S8388608x12, .f32⟩
  | .hbm, ⟨30, _⟩ => ⟨S8388608x12, .f32⟩
  | .hbm, ⟨31, _⟩ => ⟨S_, .f32⟩
  | .hbm, ⟨32, _⟩ => ⟨S8388608x12, .f32⟩
  | .hbm, ⟨33, _⟩ => ⟨S8388608x12, .f32⟩
  | .hbm, ⟨34, _⟩ => ⟨S8388608x12, .f32⟩
  | .hbm, ⟨35, _⟩ => ⟨S1x12, .f32⟩
  | .hbm, ⟨36, _⟩ => ⟨S8388608x12, .f32⟩
  | .hbm, ⟨37, _⟩ => ⟨S8388608x12, .f32⟩
  | .hbm, ⟨38, _⟩ => ⟨S_, .f32⟩
  | .hbm, ⟨39, _⟩ => ⟨S8388608x12, .f32⟩
  | .hbm, ⟨40, _⟩ => ⟨S8388608x12, .f32⟩
  | .hbm, ⟨41, _⟩ => ⟨S8388608x12, .f32⟩
  | .hbm, ⟨42, _⟩ => ⟨S1x12, .f32⟩
  | .hbm, ⟨43, _⟩ => ⟨S8388608x12, .f32⟩
  | .hbm, ⟨44, _⟩ => ⟨S8388608x12, .f32⟩
  | .hbm, ⟨45, _⟩ => ⟨S_, .f32⟩
  | .hbm, ⟨46, _⟩ => ⟨S8388608x12, .f32⟩
  | .hbm, ⟨47, _⟩ => ⟨S8388608x12, .f32⟩
  | .hbm, ⟨48, _⟩ => ⟨S8388608x6, .f32⟩
  | .hbm, ⟨49, _⟩ => ⟨S1x6, .f32⟩
  | .hbm, ⟨50, _⟩ => ⟨S8388608x6, .f32⟩
  | .hbm, ⟨51, _⟩ => ⟨S8388608x6, .f32⟩
  | .hbm, ⟨52, _⟩ => ⟨S8388608x1, .f32⟩
  | .hbm, ⟨53, _⟩ => ⟨S1x1, .f32⟩
  | .hbm, ⟨54, _⟩ => ⟨S8388608x1, .f32⟩
  | .hbm, ⟨55, _⟩ => ⟨S8388608x1, .f32⟩
  | .hbm, ⟨56, _⟩ => ⟨S32768x256, .f32⟩
  | _, _ => ⟨S32768x256x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_cst : Ref sig .tc := ⟨.hbm, 24, rfl⟩
abbrev main_call0_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_cst : Ref sig .tc := ⟨.hbm, 31, rfl⟩
abbrev main_call1_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call2_cst : Ref sig .tc := ⟨.hbm, 38, rfl⟩
abbrev main_call2_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call3_cst : Ref sig .tc := ⟨.hbm, 45, rfl⟩
abbrev main_call3_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩

abbrev nD : Nat := 1
abbrev τ : Topo := Topo.v7x

variable {F : FTy → Type} [FloatOps F]

class Facts₀ : Prop where
  shapeCasts_S32768x256x7_S8388608x7 : S32768x256x7.ShapeCasts S8388608x7
  bcast_S12_S1x12_1 : S12.BroadcastsInDim S1x12 (![1] : Fin 1 → Fin S1x12.rank)
  bcast_S1x12_S8388608x12_0_1 : S1x12.BroadcastsInDim S8388608x12 (![0, 1] : Fin 2 → Fin S8388608x12.rank)
  bcast_S_S8388608x12 : S_.BroadcastsInDim S8388608x12 (![] : Fin 0 → Fin S8388608x12.rank)
  bcast_S6_S1x6_1 : S6.BroadcastsInDim S1x6 (![1] : Fin 1 → Fin S1x6.rank)
  bcast_S1x6_S8388608x6_0_1 : S1x6.BroadcastsInDim S8388608x6 (![0, 1] : Fin 2 → Fin S8388608x6.rank)
  bcast_S1_S1x1_1 : S1.BroadcastsInDim S1x1 (![1] : Fin 1 → Fin S1x1.rank)
  bcast_S1x1_S8388608x1_0_1 : S1x1.BroadcastsInDim S8388608x1 (![0, 1] : Fin 2 → Fin S8388608x1.rank)
  shapeCasts_S8388608x1_S32768x256 : S8388608x1.ShapeCasts S32768x256
  dot_S8388608x7_S7x12_S8388608x12_1_0_0_1_n_n_wf : DotDims.WF S8388608x7 S7x12 S8388608x12 [1] [0] [0] [1] [] []
  dot_S8388608x12_S12x12_S8388608x12_1_0_0_1_n_n_wf : DotDims.WF S8388608x12 S12x12 S8388608x12 [1] [0] [0] [1] [] []
  dot_S8388608x12_S12x6_S8388608x6_1_0_0_1_n_n_wf : DotDims.WF S8388608x12 S12x6 S8388608x6 [1] [0] [0] [1] [] []
  dot_S8388608x6_S6x1_S8388608x1_1_0_0_1_n_n_wf : DotDims.WF S8388608x6 S6x1 S8388608x1 [1] [0] [0] [1] [] []

variable [Facts₀]

def dot_S8388608x7_S7x12_S8388608x12_1_0_0_1_n_n : DotDims S8388608x7 S7x12 S8388608x12 where
  lhsContracting := [1]
  rhsContracting := [0]
  lhsNonContracting := [0]
  rhsNonContracting := [1]
  lhsBatch := []
  rhsBatch := []
  wf := dot_S8388608x7_S7x12_S8388608x12_1_0_0_1_n_n_wf
def dot_S8388608x12_S12x12_S8388608x12_1_0_0_1_n_n : DotDims S8388608x12 S12x12 S8388608x12 where
  lhsContracting := [1]
  rhsContracting := [0]
  lhsNonContracting := [0]
  rhsNonContracting := [1]
  lhsBatch := []
  rhsBatch := []
  wf := dot_S8388608x12_S12x12_S8388608x12_1_0_0_1_n_n_wf
def dot_S8388608x12_S12x6_S8388608x6_1_0_0_1_n_n : DotDims S8388608x12 S12x6 S8388608x6 where
  lhsContracting := [1]
  rhsContracting := [0]
  lhsNonContracting := [0]
  rhsNonContracting := [1]
  lhsBatch := []
  rhsBatch := []
  wf := dot_S8388608x12_S12x6_S8388608x6_1_0_0_1_n_n_wf
def dot_S8388608x6_S6x1_S8388608x1_1_0_0_1_n_n : DotDims S8388608x6 S6x1 S8388608x1 where
  lhsContracting := [1]
  rhsContracting := [0]
  lhsNonContracting := [0]
  rhsNonContracting := [1]
  lhsBatch := []
  rhsBatch := []
  wf := dot_S8388608x6_S6x1_S8388608x1_1_0_0_1_n_n_wf

class Facts : Prop extends Facts₀ where

variable [Facts]
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibLayerForms.lean ====
/-
  One layer of a multilayer perceptron on the extended reals, as a vector unit spells it and as a host program spells it,
  and the rectifier between two layers.

  A layer takes a matrix `x : [M, K]`, a weight matrix `w : [K, N]` and a bias vector `b : [N]` to the matrix
  `x · w + b`, the bias added to every row: entry `(p, q)` is `(∑ k, x (p, k) · w (k, q)) + b q`. A vector unit forms the
  product by a matrix multiplication into a zero accumulator, lifts the bias to a `[1, N]` row by a shape cast and broadcasts
  that row over the `M` rows (`vec_layer`). A host program forms the product by a general dot product, lifts the bias
  to a `[1, N]` row by a broadcast along a new leading axis and broadcasts that row over the rows (`host_layer`). Both are
  the same array `dense x w b`. The rectifier `max v 0` is spelt with a scalar zero broadcast to the shape on the vector unit
  (`vec_relu`) and with a rank-0 zero constant broadcast to the shape on the host (`host_relu`).

  A layer's row `p` depends on row `p` of its operand only, and so does the rectifier's. `RowsAgree xb x off` says that
  `xb` is the block of rows `off, off + 1, …` of `x`; a layer and the rectifier send agreeing operands to agreeing results
  (`dense_rows`, `relu_rows`), so a perceptron evaluated on a block of rows is that block of rows of the perceptron
  evaluated on all rows.
-/
import proofs.«106773_j73864847557074_1_alg».proof.Proof.LibDenseLayer
import proofs.«106773_j73864847557074_1_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LayerForms

open Idealize.ShloMosaic Idealize.ShloMosaic.ValueIdx Cert.DenseLayer

/-- A bias vector as a function of the column. -/
def colBias {N : ℕ} (b : (⟨1, ![N]⟩ : Shape).Idx → EReal) : Fin N → EReal := fun q => b (ix1 q)

/-- The rectifier: every entry clamped below at zero. -/
def relu {S : Shape} (v : S.Idx → EReal) : S.Idx → EReal := fun i => max (v i) 0

/-- A plain `[M, K] · [K, N]` general dot product of a host program, at `(p, q)`, is `∑ k, l (p, k) · r (k, q)`. -/
theorem dotGeneral_plain_apply {M K N : ℕ} {φ₁ φ₂ : FTy}
    (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  subst hD
  rw [Ideal.dotGeneral_apply, ← Equiv.sum_comp (contrEquiv1 (DotDims.plain M K N) K rfl rfl).symm]
  refine Finset.sum_congr rfl fun k _ => ?_
  rw [Cert.LibPlainMatmul.plain_lhsIdx, Cert.LibPlainMatmul.plain_rhsIdx]

/-- The layer as a vector unit spells it: the product into a zero accumulator, plus the bias cast to a row and
    broadcast over the rows. -/
theorem vec_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

/-- The layer as a host program spells it: the general dot product, plus the bias broadcast to a row along a new leading
    axis and that row broadcast over the rows. -/
theorem host_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) := by
  funext i
  obtain ⟨p, q, rfl⟩ : ∃ (p : Fin M) (q : Fin N), i = ix2 p q := ⟨i 0, i 1, eq_ix2 i⟩
  show FloatOps.dotGeneral D prec .single x w (ix2 p q)
      + broadcastInDim ⟨2, ![M, N]⟩ ![0, 1] h2 (broadcastInDim ⟨2, ![1, N]⟩ ![1] h1 b) (ix2 p q)
    = (∑ k : Fin K, x (ix2 p k) * w (ix2 k q)) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [dotGeneral_plain_apply D hD, e2, e1]

/-- The rectifier as a vector unit spells it: the maximum with a scalar zero broadcast to the shape. -/
theorem vec_relu {S : Shape} (v : FVec Ideal S .f32) :
    maximumf v (broadcast S (Scalar.ofBits (F := Ideal) .f32 0x00000000#32)) = relu v := by
  funext i
  show max (v i) (Ideal.ofBits .f32 0x00000000#32) = max (v i) 0
  rw [Ideal.ofBits_zero_f32]

/-- The rectifier as a host program spells it: the maximum with a rank-0 zero constant broadcast to the shape. -/
theorem host_relu {S : Shape} (v : FVec Ideal S .f32) (h : (⟨0, ![]⟩ : Shape).BroadcastsInDim S ![]) :
    maximumf v (broadcastInDim S ![] h (constant (F := Ideal) ⟨0, ![]⟩ .f32 0x00000000#32)) = relu v := by
  funext i
  show max (v i) (Ideal.ofBits .f32 0x00000000#32) = max (v i) 0
  rw [Ideal.ofBits_zero_f32]

/-! ## Blocks of rows -/

/-- `xb` is the block of rows `off, off + 1, …` of `x`. -/
def RowsAgree {m M K : ℕ} (xb : (⟨2, ![m, K]⟩ : Shape).Idx → EReal) (x : (⟨2, ![M, K]⟩ : Shape).Idx → EReal) (off : ℕ) : Prop :=
  ∀ (p : Fin m) (P : Fin M), P.val = off + p.val → ∀ k : Fin K, xb (ix2 p k) = x (ix2 P k)

/-- A layer on a block of rows is that block of rows of the layer. -/
theorem dense_rows {m M K N : ℕ} {xb : (⟨2, ![m, K]⟩ : Shape).Idx → EReal} {x : (⟨2, ![M, K]⟩ : Shape).Idx → EReal} {off : ℕ}
    (h : RowsAgree xb x off) (w : (⟨2, ![K, N]⟩ : Shape).Idx → EReal) (b : Fin N → EReal) :
    RowsAgree (dense xb w b) (dense x w b) off :=
  fun p P hP q => by
    rw [dense_ix2, dense_ix2]
    exact denseAt_rows x xb w b p P q (h p P hP)

/-- The rectifier on a block of rows is that block of rows of the rectifier. -/
theorem relu_rows {m M K : ℕ} {xb : (⟨2, ![m, K]⟩ : Shape).Idx → EReal} {x : (⟨2, ![M, K]⟩ : Shape).Idx → EReal} {off : ℕ}
    (h : RowsAgree xb x off) : RowsAgree (relu xb) (relu x) off :=
  fun p P hP k => by
    show max (xb (ix2 p k)) 0 = max (x (ix2 P k)) 0
    rw [h p P hP k]

end Cert.LayerForms

end
-- ==== Proof.Spec.lean ====
/-
  The function both programs compute: a seven-layer perceptron applied to every row of a matrix.

  For `x : [M, 7]`, weight matrices `w0 : [7, 12]`, `w1 … w4 : [12, 12]`, `w5 : [12, 6]`, `w6 : [6, 1]` and a bias
  per column `b0 … b6`, the first layer is linear, `h0 = x · w0 + b0`; the next four are rectified,
  `h(i) = max (h(i-1) · w(i) + b(i)) 0` for `i = 1 … 4`; the last two are linear, `h5 = h4 · w5 + b5` and
  `h6 = h5 · w6 + b6 : [M, 1]`. Nothing here is specific to the number of rows `M`.

  Every layer and the rectifier act row by row, so the perceptron of a block of rows is that block of rows of the
  perceptron of all rows (`mlp_rows`): the rows may be processed in blocks, in any order.
-/
import proofs.«106773_j73864847557074_1_alg».proof.Proof.LibLayerForms

noncomputable section

namespace Cert.Mlp

open Idealize.ShloMosaic Idealize.ShloMosaic.ValueIdx Cert.DenseLayer Cert.LayerForms

/-- The seven-layer perceptron of the rows of `x`: one linear layer, four rectified layers, two linear layers. -/
def mlp {M : ℕ} (x : (⟨2, ![M, 7]⟩ : Shape).Idx → EReal)
    (w0 : (⟨2, ![7, 12]⟩ : Shape).Idx → EReal) (b0 : Fin 12 → EReal)
    (w1 : (⟨2, ![12, 12]⟩ : Shape).Idx → EReal) (b1 : Fin 12 → EReal)
    (w2 : (⟨2, ![12, 12]⟩ : Shape).Idx → EReal) (b2 : Fin 12 → EReal)
    (w3 : (⟨2, ![12, 12]⟩ : Shape).Idx → EReal) (b3 : Fin 12 → EReal)
    (w4 : (⟨2, ![12, 12]⟩ : Shape).Idx → EReal) (b4 : Fin 12 → EReal)
    (w5 : (⟨2, ![12, 6]⟩ : Shape).Idx → EReal) (b5 : Fin 6 → EReal)
    (w6 : (⟨2, ![6, 1]⟩ : Shape).Idx → EReal) (b6 : Fin 1 → EReal) : (⟨2, ![M, 1]⟩ : Shape).Idx → EReal :=
  dense (dense (relu (dense (relu (dense (relu (dense (relu (dense (dense x w0 b0) w1 b1)) w2 b2)) w3 b3)) w4 b4)) w5 b5) w6 b6

/-- The perceptron of a block of rows is that block of rows of the perceptron. -/
theorem mlp_rows {m M : ℕ} {xb : (⟨2, ![m, 7]⟩ : Shape).Idx → EReal} {x : (⟨2, ![M, 7]⟩ : Shape).Idx → EReal} {off : ℕ}
    (h : RowsAgree xb x off)
    (w0 : (⟨2, ![7, 12]⟩ : Shape).Idx → EReal) (b0 : Fin 12 → EReal)
    (w1 : (⟨2, ![12, 12]⟩ : Shape).Idx → EReal) (b1 : Fin 12 → EReal)
    (w2 : (⟨2, ![12, 12]⟩ : Shape).Idx → EReal) (b2 : Fin 12 → EReal)
    (w3 : (⟨2, ![12, 12]⟩ : Shape).Idx → EReal) (b3 : Fin 12 → EReal)
    (w4 : (⟨2, ![12, 12]⟩ : Shape).Idx → EReal) (b4 : Fin 12 → EReal)
    (w5 : (⟨2, ![12, 6]⟩ : Shape).Idx → EReal) (b5 : Fin 6 → EReal)
    (w6 : (⟨2, ![6, 1]⟩ : Shape).Idx → EReal) (b6 : Fin 1 → EReal) :
    RowsAgree (mlp xb w0 b0 w1 b1 w2 b2 w3 b3 w4 b4 w5 b5 w6 b6) (mlp x w0 b0 w1 b1 w2 b2 w3 b3 w4 b4 w5 b5 w6 b6) off :=
  dense_rows (dense_rows (relu_rows (dense_rows (relu_rows (dense_rows (relu_rows (dense_rows (relu_rows
    (dense_rows (dense_rows h w0 b0) w1 b1)) w2 b2)) w3 b3)) w4 b4)) w5 b5) w6 b6

/-- Read at an index: the perceptron of a block of rows at `y` is the perceptron of all rows at `i`, when `i` is `y` moved
    down by the block's first row. -/
theorem mlp_block_apply {m M : ℕ} {xb : (⟨2, ![m, 7]⟩ : Shape).Idx → EReal} {x : (⟨2, ![M, 7]⟩ : Shape).Idx → EReal} {off : ℕ}
    (h : RowsAgree xb x off)
    (w0 : (⟨2, ![7, 12]⟩ : Shape).Idx → EReal) (b0 : Fin 12 → EReal)
    (w1 : (⟨2, ![12, 12]⟩ : Shape).Idx → EReal) (b1 : Fin 12 → EReal)
    (w2 : (⟨2, ![12, 12]⟩ : Shape).Idx → EReal) (b2 : Fin 12 → EReal)
    (w3 : (⟨2, ![12, 12]⟩ : Shape).Idx → EReal) (b3 : Fin 12 → EReal)
    (w4 : (⟨2, ![12, 12]⟩ : Shape).Idx → EReal) (b4 : Fin 12 → EReal)
    (w5 : (⟨2, ![12, 6]⟩ : Shape).Idx → EReal) (b5 : Fin 6 → EReal)
    (w6 : (⟨2, ![6, 1]⟩ : Shape).Idx → EReal) (b6 : Fin 1 → EReal)
    (y : (⟨2, ![m, 1]⟩ : Shape).Idx) (i : (⟨2, ![M, 1]⟩ : Shape).Idx)
    (h0 : (i 0).val = off + (y 0).val) (h1 : (i 1).val = (y 1).val) :
    mlp xb w0 b0 w1 b1 w2 b2 w3 b3 w4 b4 w5 b5 w6 b6 y = mlp x w0 b0 w1 b1 w2 b2 w3 b3 w4 b4 w5 b5 w6 b6 i := by
  obtain ⟨p, q, rfl⟩ : ∃ (p : Fin m) (q : Fin 1), y = ix2 p q := ⟨y 0, y 1, eq_ix2 y⟩
  obtain ⟨P, Q, rfl⟩ : ∃ (P : Fin M) (Q : Fin 1), i = ix2 P Q := ⟨i 0, i 1, eq_ix2 i⟩
  obtain rfl : Q = q := Fin.ext h1
  exact mlp_rows h w0 b0 w1 b1 w2 b2 w3 b3 w4 b4 w5 b5 w6 b6 p P h0 Q

/-- The whole computation: the `[32768, 256, 7]` input re-laid as `8388608` rows of `7` features, the perceptron of every row,
    and the column of results re-laid as a `[32768, 256]` array. (Each re-laying keeps the row-major order; the two
    hypotheses say the element counts agree.) -/
def result (h0 : (⟨3, ![32768, 256, 7]⟩ : Shape).ShapeCasts ⟨2, ![8388608, 7]⟩)
    (h1 : (⟨2, ![8388608, 1]⟩ : Shape).ShapeCasts ⟨2, ![32768, 256]⟩)
    (a0 : (⟨3, ![32768, 256, 7]⟩ : Shape).Idx → EReal)
    (a1 : (⟨2, ![7, 12]⟩ : Shape).Idx → EReal) (a2 : (⟨1, ![12]⟩ : Shape).Idx → EReal)
    (a3 : (⟨2, ![12, 12]⟩ : Shape).Idx → EReal) (a4 : (⟨1, ![12]⟩ : Shape).Idx → EReal)
    (a5 : (⟨2, ![12, 12]⟩ : Shape).Idx → EReal) (a6 : (⟨1, ![12]⟩ : Shape).Idx → EReal)
    (a7 : (⟨2, ![12, 12]⟩ : Shape).Idx → EReal) (a8 : (⟨1, ![12]⟩ : Shape).Idx → EReal)
    (a9 : (⟨2, ![12, 12]⟩ : Shape).Idx → EReal) (a10 : (⟨1, ![12]⟩ : Shape).Idx → EReal)
    (a11 : (⟨2, ![12, 6]⟩ : Shape).Idx → EReal) (a12 : (⟨1, ![6]⟩ : Shape).Idx → EReal)
    (a13 : (⟨2, ![6, 1]⟩ : Shape).Idx → EReal) (a14 : (⟨1, ![1]⟩ : Shape).Idx → EReal) :
    (⟨2, ![32768, 256]⟩ : Shape).Idx → EReal :=
  shapeCast ⟨2, ![32768, 256]⟩
    (mlp (shapeCast ⟨2, ![8388608, 7]⟩ a0 h0) a1 (colBias a2) a3 (colBias a4) a5 (colBias a6) a7 (colBias a8) a9 (colBias a10)
      a11 (colBias a12) a13 (colBias a14)) h1

end Cert.Mlp

end
-- ==== Proof.KernelBody.lean ====
/-
  What the kernel's body computes on one block of rows: the perceptron of the block.

  The body loads a block `x0` of `131072` rows and the whole weight matrices and bias vectors `x1 … x14`, and stores
  one column. Its arithmetic is seven vector-unit layers — a matrix multiplication into a zero accumulator plus the bias cast
  to a row and broadcast over the rows — with a rectifier (a maximum with a broadcast scalar zero) after the second, third,
  fourth and fifth. Each is the layer `x · w + b` and the rectifier, so the stored column is the perceptron of the block.
-/
import proofs.«106773_j73864847557074_1_alg».proof.Proof.Gen.KernelIdeal.Skeleton
import proofs.«106773_j73864847557074_1_alg».proof.Proof.Spec

noncomputable section

namespace Cert.KernelIdeal.Body

open Cert.KernelIdeal Cert.KernelIdeal.Gen Idealize.ShloMosaic Idealize.ShloMosaic.TcCoe Idealize.SL.Sem
open Cert.LayerForms Cert.Mlp

/-- The stored column, as a function of the loaded block and of the weights and biases, is the perceptron of the block. -/
theorem pay_eq (x0 : Vec Ideal S131072x7 .f32) (x1 : Vec Ideal S7x12 .f32) (x2 : Vec Ideal S12 .f32)
    (x3 : Vec Ideal S12x12 .f32) (x4 : Vec Ideal S12 .f32) (x5 : Vec Ideal S12x12 .f32) (x6 : Vec Ideal S12 .f32)
    (x7 : Vec Ideal S12x12 .f32) (x8 : Vec Ideal S12 .f32) (x9 : Vec Ideal S12x12 .f32) (x10 : Vec Ideal S12 .f32)
    (x11 : Vec Ideal S12x6 .f32) (x12 : Vec Ideal S6 .f32) (x13 : Vec Ideal S6x1 .f32) (x14 : Vec Ideal S1 .f32) :
    k0_pay1 (F := Ideal) (k0_pay2 (F := Ideal) x0 x1 x2 x3 x4 x5 x6 x7 x8 x9) x10 x11 x12 x13 x14
      = mlp x0 x1 (colBias x2) x3 (colBias x4) x5 (colBias x6) x7 (colBias x8) x9 (colBias x10) x11 (colBias x12) x13 (colBias x14) := by
  unfold k0_pay1 k0_pay2 mlp
  dsimp only
  rw [shapeCast_self,
    vec_layer dot_S131072x7_S7x12_S131072x12_1_0_0_1_n_n rfl,
    vec_layer dot_S131072x12_S12x12_S131072x12_1_0_0_1_n_n rfl, vec_relu,
    vec_layer dot_S131072x12_S12x12_S131072x12_1_0_0_1_n_n rfl, vec_relu,
    vec_layer dot_S131072x12_S12x12_S131072x12_1_0_0_1_n_n rfl, vec_relu,
    vec_layer dot_S131072x12_S12x12_S131072x12_1_0_0_1_n_n rfl, vec_relu,
    vec_layer dot_S131072x12_S12x6_S131072x6_1_0_0_1_n_n rfl,
    vec_layer dot_S131072x6_S6x1_S131072x1_1_0_0_1_n_n rfl]

end Cert.KernelIdeal.Body

end
-- ==== Proof.KernelValue.lean ====
/-
  The idealized kernel's run, read: its result array ends at the perceptron of the re-laid input, re-laid.

  The program re-lays the `[32768, 256, 7]` input as an `[8388608, 7]` matrix, runs the kernel over a grid of `64` points and
  re-lays the resulting `[8388608, 1]` column as `[32768, 256]`. At point `t` the kernel sees rows
  `131072 · t … 131072 · t + 131071` of the matrix (`iblk0_rows`) and the whole of every weight matrix and bias vector
  (`iblk1 … iblk14`), and writes back rows `131072 · t …` of the column. What it writes is the perceptron of its block of rows
  (the body's arithmetic), and the perceptron acts row by row, so the block written back is that block of the perceptron of the
  whole matrix (`flushed_eq`). Row `r` of the column is written at point `r / 131072`, so the `64` blocks cover the column
  (`final`), and the program's result is that column re-laid (`run`).
-/
import proofs.«106773_j73864847557074_1_alg».proof.Proof.Gen.KernelIdeal.Frame
import proofs.«106773_j73864847557074_1_alg».proof.Proof.KernelBody
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.LayerForms Cert.Mlp

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## Where each window's block sits, decided over the 64 grid points -/

/-- The input window's block index at point `t` is `(t, 0)`. -/
theorem idx0 : ∀ t : Fin cfg0.N, win0_0.index t (0 : Fin 2) = t.val ∧ win0_0.index t (1 : Fin 2) = 0 :=
  (by decide +kernel : ∀ t : Fin grid0.N, _)

/-- The output window's block index at point `t` is `(t, 0)`. -/
theorem idx15 : ∀ t : Fin cfg0.N, win0_15.index t (0 : Fin 2) = t.val ∧ win0_15.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

/-- Window 1's block at every point is the whole array `main_arg1`: one block, at index zero on every axis. -/
theorem iblk1 (c : Dev nD) (t : Fin cfg0.N) : (iblk m c 1 t : Vec Ideal S7x12 .f32) = V m c main_arg1 := by
  obtain ⟨e0, e1⟩ := idx1 t
  funext y
  unfold iblk
  rw [View.read_apply]
  show V m c main_arg1 (((cfg0.win 1).blk t).view.emb y) = V m c main_arg1 y
  refine congrArg (V m c main_arg1) (funext fun a => Fin.ext ?_)
  match a with
  | ⟨0, _⟩ => show win0_1.index t (0 : Fin 2) * 7 + 1 * (y 0).val = (y 0).val; rw [e0]; omega
  | ⟨1, _⟩ => show win0_1.index t (1 : Fin 2) * 12 + 1 * (y 1).val = (y 1).val; rw [e1]; omega

theorem idx2 : ∀ t : Fin cfg0.N, win0_2.index t (0 : Fin 1) = 0 :=
  (by decide +kernel : ∀ t : Fin grid0.N, _)

/-- Window 2's block at every point is the whole array `main_arg2`: one block, at index zero on every axis. -/
theorem iblk2 (c : Dev nD) (t : Fin cfg0.N) : (iblk m c 2 t : Vec Ideal S12 .f32) = V m c main_arg2 := by
  obtain e0 := idx2 t
  funext y
  unfold iblk
  rw [View.read_apply]
  show V m c main_arg2 (((cfg0.win 2).blk t).view.emb y) = V m c main_arg2 y
  refine congrArg (V m c main_arg2) (funext fun a => Fin.ext ?_)
  match a with
  | ⟨0, _⟩ => show win0_2.index t (0 : Fin 1) * 12 + 1 * (y 0).val = (y 0).val; rw [e0]; omega

theorem idx3 : ∀ t : Fin cfg0.N, win0_3.index t (0 : Fin 2) = 0 ∧ win0_3.index t (1 : Fin 2) = 0 :=
  (by decide +kernel : ∀ t : Fin grid0.N, _)

/-- Window 3's block at every point is the whole array `main_arg3`: one block, at index zero on every axis. -/
theorem iblk3 (c : Dev nD) (t : Fin cfg0.N) : (iblk m c 3 t : Vec Ideal S12x12 .f32) = V m c main_arg3 := by
  obtain ⟨e0, e1⟩ := idx3 t
  funext y
  unfold iblk
  rw [View.read_apply]
  show V m c main_arg3 (((cfg0.win 3).blk t).view.emb y) = V m c main_arg3 y
  refine congrArg (V m c main_arg3) (funext fun a => Fin.ext ?_)
  match a with
  | ⟨0, _⟩ => show win0_3.index t (0 : Fin 2) * 12 + 1 * (y 0).val = (y 0).val; rw [e0]; omega
  | ⟨1, _⟩ => show win0_3.index t (1 : Fin 2) * 12 + 1 * (y 1).val = (y 1).val; rw [e1]; omega

theorem idx4 : ∀ t : Fin cfg0.N, win0_4.index t (0 : Fin 1) = 0 :=
  (by decide +kernel : ∀ t : Fin grid0.N, _)

/-- Window 4's block at every point is the whole array `main_arg4`: one block, at index zero on every axis. -/
theorem iblk4 (c : Dev nD) (t : Fin cfg0.N) : (iblk m c 4 t : Vec Ideal S12 .f32) = V m c main_arg4 := by
  obtain e0 := idx4 t
  funext y
  unfold iblk
  rw [View.read_apply]
  show V m c main_arg4 (((cfg0.win 4).blk t).view.emb y) = V m c main_arg4 y
  refine congrArg (V m c main_arg4) (funext fun a => Fin.ext ?_)
  match a with
  | ⟨0, _⟩ => show win0_4.index t (0 : Fin 1) * 12 + 1 * (y 0).val = (y 0).val; rw [e0]; omega

theorem idx5 : ∀ t : Fin cfg0.N, win0_5.index t (0 : Fin 2) = 0 ∧ win0_5.index t (1 : Fin 2) = 0 :=
  (by decide +kernel : ∀ t : Fin grid0.N, _)

/-- Window 5's block at every point is the whole array `main_arg5`: one block, at index zero on every axis. -/
theorem iblk5 (c : Dev nD) (t : Fin cfg0.N) : (iblk m c 5 t : Vec Ideal S12x12 .f32) = V m c main_arg5 := by
  obtain ⟨e0, e1⟩ := idx5 t
  funext y
  unfold iblk
  rw [View.read_apply]
  show V m c main_arg5 (((cfg0.win 5).blk t).view.emb y) = V m c main_arg5 y
  refine congrArg (V m c main_arg5) (funext fun a => Fin.ext ?_)
  match a with
  | ⟨0, _⟩ => show win0_5.index t (0 : Fin 2) * 12 + 1 * (y 0).val = (y 0).val; rw [e0]; omega
  | ⟨1, _⟩ => show win0_5.index t (1 : Fin 2) * 12 + 1 * (y 1).val = (y 1).val; rw [e1]; omega

theorem idx6 : ∀ t : Fin cfg0.N, win0_6.index t (0 : Fin 1) = 0 :=
  (by decide +kernel : ∀ t : Fin grid0.N, _)

/-- Window 6's block at every point is the whole array `main_arg6`: one block, at index zero on every axis. -/
theorem iblk6 (c : Dev nD) (t : Fin cfg0.N) : (iblk m c 6 t : Vec Ideal S12 .f32) = V m c main_arg6 := by
  obtain e0 := idx6 t
  funext y
  unfold iblk
  rw [View.read_apply]
  show V m c main_arg6 (((cfg0.win 6).blk t).view.emb y) = V m c main_arg6 y
  refine congrArg (V m c main_arg6) (funext fun a => Fin.ext ?_)
  match a with
  | ⟨0, _⟩ => show win0_6.index t (0 : Fin 1) * 12 + 1 * (y 0).val = (y 0).val; rw [e0]; omega

theorem idx7 : ∀ t : Fin cfg0.N, win0_7.index t (0 : Fin 2) = 0 ∧ win0_7.index t (1 : Fin 2) = 0 :=
  (by decide +kernel : ∀ t : Fin grid0.N, _)

/-- Window 7's block at every point is the whole array `main_arg7`: one block, at index zero on every axis. -/
theorem iblk7 (c : Dev nD) (t : Fin cfg0.N) : (iblk m c 7 t : Vec Ideal S12x12 .f32) = V m c main_arg7 := by
  obtain ⟨e0, e1⟩ := idx7 t
  funext y
  unfold iblk
  rw [View.read_apply]
  show V m c main_arg7 (((cfg0.win 7).blk t).view.emb y) = V m c main_arg7 y
  refine congrArg (V m c main_arg7) (funext fun a => Fin.ext ?_)
  match a with
  | ⟨0, _⟩ => show win0_7.index t (0 : Fin 2) * 12 + 1 * (y 0).val = (y 0).val; rw [e0]; omega
  | ⟨1, _⟩ => show win0_7.index t (1 : Fin 2) * 12 + 1 * (y 1).val = (y 1).val; rw [e1]; omega

theorem idx8 : ∀ t : Fin cfg0.N, win0_8.index t (0 : Fin 1) = 0 :=
  (by decide +kernel : ∀ t : Fin grid0.N, _)

/-- Window 8's block at every point is the whole array `main_arg8`: one block, at index zero on every axis. -/
theorem iblk8 (c : Dev nD) (t : Fin cfg0.N) : (iblk m c 8 t : Vec Ideal S12 .f32) = V m c main_arg8 := by
  obtain e0 := idx8 t
  funext y
  unfold iblk
  rw [View.read_apply]
  show V m c main_arg8 (((cfg0.win 8).blk t).view.emb y) = V m c main_arg8 y
  refine congrArg (V m c main_arg8) (funext fun a => Fin.ext ?_)
  match a with
  | ⟨0, _⟩ => show win0_8.index t (0 : Fin 1) * 12 + 1 * (y 0).val = (y 0).val; rw [e0]; omega

theorem idx9 : ∀ t : Fin cfg0.N, win0_9.index t (0 : Fin 2) = 0 ∧ win0_9.index t (1 : Fin 2) = 0 :=
  (by decide +kernel : ∀ t : Fin grid0.N, _)

/-- Window 9's block at every point is the whole array `main_arg9`: one block, at index zero on every axis. -/
theorem iblk9 (c : Dev nD) (t : Fin cfg0.N) : (iblk m c 9 t : Vec Ideal S12x12 .f32) = V m c main_arg9 := by
  obtain ⟨e0, e1⟩ := idx9 t
  funext y
  unfold iblk
  rw [View.read_apply]
  show V m c main_arg9 (((cfg0.win 9).blk t).view.emb y) = V m c main_arg9 y
  refine congrArg (V m c main_arg9) (funext fun a => Fin.ext ?_)
  match a with
  | ⟨0, _⟩ => show win0_9.index t (0 : Fin 2) * 12 + 1 * (y 0).val = (y 0).val; rw [e0]; omega
  | ⟨1, _⟩ => show win0_9.index t (1 : Fin 2) * 12 + 1 * (y 1).val = (y 1).val; rw [e1]; omega

theorem idx10 : ∀ t : Fin cfg0.N, win0_10.index t (0 : Fin 1) = 0 :=
  (by decide +kernel : ∀ t : Fin grid0.N, _)

/-- Window 10's block at every point is the whole array `main_arg10`: one block, at index zero on every axis. -/
theorem iblk10 (c : Dev nD) (t : Fin cfg0.N) : (iblk m c 10 t : Vec Ideal S12 .f32) = V m c main_arg10 := by
  obtain e0 := idx10 t
  funext y
  unfold iblk
  rw [View.read_apply]
  show V m c main_arg10 (((cfg0.win 10).blk t).view.emb y) = V m c main_arg10 y
  refine congrArg (V m c main_arg10) (funext fun a => Fin.ext ?_)
  match a with
  | ⟨0, _⟩ => show win0_10.index t (0 : Fin 1) * 12 + 1 * (y 0).val = (y 0).val; rw [e0]; omega

theorem idx11 : ∀ t : Fin cfg0.N, win0_11.index t (0 : Fin 2) = 0 ∧ win0_11.index t (1 : Fin 2) = 0 :=
  (by decide +kernel : ∀ t : Fin grid0.N, _)

/-- Window 11's block at every point is the whole array `main_arg11`: one block, at index zero on every axis. -/
theorem iblk11 (c : Dev nD) (t : Fin cfg0.N) : (iblk m c 11 t : Vec Ideal S12x6 .f32) = V m c main_arg11 := by
  obtain ⟨e0, e1⟩ := idx11 t
  funext y
  unfold iblk
  rw [View.read_apply]
  show V m c main_arg11 (((cfg0.win 11).blk t).view.emb y) = V m c main_arg11 y
  refine congrArg (V m c main_arg11) (funext fun a => Fin.ext ?_)
  match a with
  | ⟨0, _⟩ => show win0_11.index t (0 : Fin 2) * 12 + 1 * (y 0).val = (y 0).val; rw [e0]; omega
  | ⟨1, _⟩ => show win0_11.index t (1 : Fin 2) * 6 + 1 * (y 1).val = (y 1).val; rw [e1]; omega

theorem idx12 : ∀ t : Fin cfg0.N, win0_12.index t (0 : Fin 1) = 0 :=
  (by decide +kernel : ∀ t : Fin grid0.N, _)

/-- Window 12's block at every point is the whole array `main_arg12`: one block, at index zero on every axis. -/
theorem iblk12 (c : Dev nD) (t : Fin cfg0.N) : (iblk m c 12 t : Vec Ideal S6 .f32) = V m c main_arg12 := by
  obtain e0 := idx12 t
  funext y
  unfold iblk
  rw [View.read_apply]
  show V m c main_arg12 (((cfg0.win 12).blk t).view.emb y) = V m c main_arg12 y
  refine congrArg (V m c main_arg12) (funext fun a => Fin.ext ?_)
  match a with
  | ⟨0, _⟩ => show win0_12.index t (0 : Fin 1) * 6 + 1 * (y 0).val = (y 0).val; rw [e0]; omega

theorem idx13 : ∀ t : Fin cfg0.N, win0_13.index t (0 : Fin 2) = 0 ∧ win0_13.index t (1 : Fin 2) = 0 :=
  (by decide +kernel : ∀ t : Fin grid0.N, _)

/-- Window 13's block at every point is the whole array `main_arg13`: one block, at index zero on every axis. -/
theorem iblk13 (c : Dev nD) (t : Fin cfg0.N) : (iblk m c 13 t : Vec Ideal S6x1 .f32) = V m c main_arg13 := by
  obtain ⟨e0, e1⟩ := idx13 t
  funext y
  unfold iblk
  rw [View.read_apply]
  show V m c main_arg13 (((cfg0.win 13).blk t).view.emb y) = V m c main_arg13 y
  refine congrArg (V m c main_arg13) (funext fun a => Fin.ext ?_)
  match a with
  | ⟨0, _⟩ => show win0_13.index t (0 : Fin 2) * 6 + 1 * (y 0).val = (y 0).val; rw [e0]; omega
  | ⟨1, _⟩ => show win0_13.index t (1 : Fin 2) * 1 + 1 * (y 1).val = (y 1).val; rw [e1]; omega

theorem idx14 : ∀ t : Fin cfg0.N, win0_14.index t (0 : Fin 1) = 0 :=
  (by decide +kernel : ∀ t : Fin grid0.N, _)

/-- Window 14's block at every point is the whole array `main_arg14`: one block, at index zero on every axis. -/
theorem iblk14 (c : Dev nD) (t : Fin cfg0.N) : (iblk m c 14 t : Vec Ideal S1 .f32) = V m c main_arg14 := by
  obtain e0 := idx14 t
  funext y
  unfold iblk
  rw [View.read_apply]
  show V m c main_arg14 (((cfg0.win 14).blk t).view.emb y) = V m c main_arg14 y
  refine congrArg (V m c main_arg14) (funext fun a => Fin.ext ?_)
  match a with
  | ⟨0, _⟩ => show win0_14.index t (0 : Fin 1) * 1 + 1 * (y 0).val = (y 0).val; rw [e0]; omega

/-- The input window's block at point `t` is rows `131072 · t …` of the re-laid input. -/
theorem iblk0_rows (c : Dev nD) (t : Fin cfg0.N) :
    RowsAgree (iblk m c 0 t : Vec Ideal S131072x7 .f32) (V m c main_v0 : FVec Ideal S8388608x7 .f32) (t.val * 131072) := by
  obtain ⟨e0, e1⟩ := idx0 t
  intro p P hP k
  unfold iblk
  rw [View.read_apply]
  show V m c main_v0 (((cfg0.win 0).blk t).view.emb (ix2 p k)) = V m c main_v0 (ix2 P k)
  refine congrArg (V m c main_v0) (funext fun a => Fin.ext ?_)
  match a with
  | ⟨0, _⟩ => show win0_0.index t (0 : Fin 2) * 131072 + 1 * p.val = P.val; rw [e0, hP]; omega
  | ⟨1, _⟩ => show win0_0.index t (1 : Fin 2) * 7 + 1 * k.val = k.val; rw [e1]; omega

/-! ## The column the region leaves -/

/-- The perceptron of every row of the re-laid input, over the arrays as the region finds them. -/
def col (c : Dev nD) : FVec Ideal S8388608x1 .f32 :=
  mlp (V m c main_v0 : FVec Ideal S8388608x7 .f32) (V m c main_arg1 : FVec Ideal S7x12 .f32) (colBias (V m c main_arg2 : FVec Ideal S12 .f32))
    (V m c main_arg3 : FVec Ideal S12x12 .f32) (colBias (V m c main_arg4 : FVec Ideal S12 .f32))
    (V m c main_arg5 : FVec Ideal S12x12 .f32) (colBias (V m c main_arg6 : FVec Ideal S12 .f32))
    (V m c main_arg7 : FVec Ideal S12x12 .f32) (colBias (V m c main_arg8 : FVec Ideal S12 .f32))
    (V m c main_arg9 : FVec Ideal S12x12 .f32) (colBias (V m c main_arg10 : FVec Ideal S12 .f32))
    (V m c main_arg11 : FVec Ideal S12x6 .f32) (colBias (V m c main_arg12 : FVec Ideal S6 .f32))
    (V m c main_arg13 : FVec Ideal S6x1 .f32) (colBias (V m c main_arg14 : FVec Ideal S1 .f32))

/-- What point `t` writes back is block `t` of that column. -/
theorem flushed_eq (c : Dev nD) (t : Fin cfg0.N) :
    (dats m 0 c).flushed 15 t = ((cfg0.win 15).blk t).view.read (Elt Ideal) (col m c) := by
  show (cfg0.win 15).cut (grid0.coords t) ((dats m 0 c).after 15 t) = _
  rw [after0_15]
  unfold out0_15
  rw [View.canon_unit_zero hz2]
  simp only [View.ld_unit_zero (S := S131072x7) hz2, View.ld_unit_zero (S := S7x12) hz2, View.ld_unit_zero (S := S12) hz1, View.ld_unit_zero (S := S12x12) hz2, View.ld_unit_zero (S := S12x6) hz2, View.ld_unit_zero (S := S6) hz1, View.ld_unit_zero (S := S6x1) hz2, View.ld_unit_zero (S := S1) hz1]
  rw [Cert.KernelIdeal.Body.pay_eq, iblk1, iblk2, iblk3, iblk4, iblk5, iblk6, iblk7, iblk8, iblk9, iblk10, iblk11, iblk12, iblk13, iblk14]
  obtain ⟨e0, e1⟩ := idx15 t
  funext y
  show mlp (iblk m c 0 t : Vec Ideal S131072x7 .f32) _ _ _ _ _ _ _ _ _ _ _ _ _ _ y = col m c (((cfg0.win 15).blk t).view.emb y)
  unfold col
  refine mlp_block_apply (iblk0_rows m c t) _ _ _ _ _ _ _ _ _ _ _ _ _ _ y _ ?_ ?_
  · show win0_15.index t (0 : Fin 2) * 131072 + 1 * (y 0).val = t.val * 131072 + (y 0).val
    rw [e0]; omega
  · show win0_15.index t (1 : Fin 2) * 1 + 1 * (y 1).val = (y 1).val
    rw [e1]; omega

/-- An index of the column is in point `t`'s block iff each coordinate is in the block's range on its axis. -/
theorem mem_blk15 (t : Fin cfg0.N) (i : S8388608x1.Idx) :
    i ∈ ((cfg0.win 15).blk t).view.set ↔ ∀ a : Fin 2, win0_15.index t a * S131072x1.size a ≤ (i a).val ∧ (i a).val < win0_15.index t a * S131072x1.size a + S131072x1.size a := by
  show i ∈ ((View.whole main_v1).slice (win0_15.rect t)).set ↔ _
  rw [View.set_slice_whole, Rect.mem_set_unit]
  exact Iff.rfl

/-- The column after the run: row `r` was written at point `r / 131072`, so every row was written. -/
theorem final (c : Dev nD) : (dats m 0 c).arrAt 15 cfg0.N = col m c :=
  (dats m 0 c).arrAt_eq_of_cover 15 (col m c) (fun t _ => flushed_eq m c t) fun i => by
    have hi0 : (i 0).val < 8388608 := (i 0).isLt
    have hi1 : (i 1).val < 1 := (i 1).isLt
    have hN : cfg0.N = 64 := N_0
    obtain ⟨t, ht⟩ : ∃ t : Fin cfg0.N, t.val = (i 0).val / 131072 := ⟨⟨(i 0).val / 131072, by rw [hN]; omega⟩, rfl⟩
    obtain ⟨e0, e1⟩ := idx15 t
    refine ⟨t, flush0_15 t, ?_⟩
    rw [mem_blk15]
    intro a
    match a with
    | ⟨0, _⟩ =>
      show win0_15.index t (0 : Fin 2) * 131072 ≤ (i 0).val ∧ (i 0).val < win0_15.index t (0 : Fin 2) * 131072 + 131072
      rw [e0, ht]; omega
    | ⟨1, _⟩ =>
      show win0_15.index t (1 : Fin 2) * 1 ≤ (i 1).val ∧ (i 1).val < win0_15.index t (1 : Fin 2) * 1 + 1
      rw [e1]; omega

/-! ## The host operations around the region -/

/-- The region finds the input re-laid as `8388608` rows. -/
theorem V_main_v0 (c : Dev nD) :
    (V m c main_v0 : FVec Ideal S8388608x7 .f32) = shapeCast S8388608x7 (m ((c.tc : Thread nD τ).loc main_arg0)) shapeCasts_S32768x256x7_S8388608x7 := by
  show StableHlo.after hostOps0 (fun b => m (c, b)) (Proc.devRef .tc main_v0) = _
  after_results
  rfl

/-- The column over the arguments as launched. -/
theorem col_eq (c : Dev nD) : col m c = mlp (shapeCast S8388608x7 (m ((c.tc : Thread nD τ).loc main_arg0)) shapeCasts_S32768x256x7_S8388608x7)
    (m ((c.tc : Thread nD τ).loc main_arg1)) (colBias (m ((c.tc : Thread nD τ).loc main_arg2))) (m ((c.tc : Thread nD τ).loc main_arg3)) (colBias (m ((c.tc : Thread nD τ).loc main_arg4))) (m ((c.tc : Thread nD τ).loc main_arg5)) (colBias (m ((c.tc : Thread nD τ).loc main_arg6))) (m ((c.tc : Thread nD τ).loc main_arg7)) (colBias (m ((c.tc : Thread nD τ).loc main_arg8)))
    (m ((c.tc : Thread nD τ).loc main_arg9)) (colBias (m ((c.tc : Thread nD τ).loc main_arg10))) (m ((c.tc : Thread nD τ).loc main_arg11)) (colBias (m ((c.tc : Thread nD τ).loc main_arg12))) (m ((c.tc : Thread nD τ).loc main_arg13)) (colBias (m ((c.tc : Thread nD τ).loc main_arg14))) := by
  unfold col
  rw [V_main_v0 m c, V_main_arg1 m c, V_main_arg2 m c, V_main_arg3 m c, V_main_arg4 m c, V_main_arg5 m c, V_main_arg6 m c, V_main_arg7 m c,
    V_main_arg8 m c, V_main_arg9 m c, V_main_arg10 m c, V_main_arg11 m c, V_main_arg12 m c, V_main_arg13 m c, V_main_arg14 m c]

/-- The line after the region re-lays the column the region left. -/
theorem tail_v2 (c : Dev nD) :
    Pipeline.afterTail₀ cfgs (dats m) 0 (V0 m) [hostOps1] c main_v2
      = shapeCast S32768x256 ((dats m 0 c).arrAt 15 cfg0.N) shapeCasts_S8388608x1_S32768x256 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 15 cfg0.N :=
    Pipeline.withArrays_arr spec0 launch0.win.arr_inj c _ _ 15
  rw [e]
  rfl

/-! ## The run -/

/-- Every weakly fair execution of the idealized kernel's program terminates with the result array at the perceptron of
    the re-laid input, re-laid, and the arguments unchanged. -/
theorem run : θ_run defs (onTc (τ := τ) (main (F := Ideal))) ⟨m, fun _ => 0, ρ⟩ fun r => ∀ c : Dev nD,
      r.2.mem ((c.tc : Thread nD τ).loc main_v2) = result shapeCasts_S32768x256x7_S8388608x7 shapeCasts_S8388608x1_S32768x256 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨
      (((h c).2 main_v2 (Pipeline.mem_restRefs_of main_v2 (by decide) (by decide))).trans (tail_v2 m c)).trans (by
        rw [final m c, col_eq m c]; rfl),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c))),
      ((h c).1 13).trans (((dats m 0 c).arrAt_in 13 rfl _).trans ((A_eq m c 13).trans (V_main_arg13 m c))),
      ((h c).1 14).trans (((dats m 0 c).arrAt_in 14 rfl _).trans ((A_eq m c 14).trans (V_main_arg14 m c)))⟩)
    (run_main m ρ)

end Cert.KernelIdeal.KValue

end
-- ==== Proof.RefSide.lean ====
/-
  The reference program's result is the perceptron of the re-laid input.

  The reference re-lays its `[32768, 256, 7]` input as `8388608` rows, applies seven host layers — a general dot product
  with the weights plus the bias broadcast over the rows — with a rectifier (a maximum with a broadcast zero constant) after
  the second, third, fourth and fifth of them, and re-lays the resulting column as `[32768, 256]`. Each host layer is the
  layer `x · w + b` and each maximum the rectifier, so the whole term is `Cert.Mlp.result` of the fifteen arguments.
-/
import proofs.«106773_j73864847557074_1_alg».proof.Proof.Gen.ReferenceIdeal.Run
import proofs.«106773_j73864847557074_1_alg».proof.Proof.Spec

noncomputable section

namespace Cert.ReferenceIdeal.RefValue

open Cert.ReferenceIdeal Cert.ReferenceIdeal.Gen Idealize.ShloMosaic Idealize.ShloMosaic.TcCoe Idealize.SL.Sem
open Cert.LayerForms Cert.Mlp

/-- The reference's composed term of its arguments is the perceptron of the re-laid input, re-laid. -/
theorem term_eq (a0 : FVec Ideal S32768x256x7 .f32) (a1 : FVec Ideal S7x12 .f32) (a2 : FVec Ideal S12 .f32)
    (a3 : FVec Ideal S12x12 .f32) (a4 : FVec Ideal S12 .f32) (a5 : FVec Ideal S12x12 .f32) (a6 : FVec Ideal S12 .f32)
    (a7 : FVec Ideal S12x12 .f32) (a8 : FVec Ideal S12 .f32) (a9 : FVec Ideal S12x12 .f32) (a10 : FVec Ideal S12 .f32)
    (a11 : FVec Ideal S12x6 .f32) (a12 : FVec Ideal S6 .f32) (a13 : FVec Ideal S6x1 .f32) (a14 : FVec Ideal S1 .f32) :
    (shapeCast _ (addf (Host.dotGeneral dot_S8388608x6_S6x1_S8388608x1_1_0_0_1_n_n none (addf (Host.dotGeneral dot_S8388608x12_S12x6_S8388608x6_1_0_0_1_n_n none (maximumf (addf (Host.dotGeneral dot_S8388608x12_S12x12_S8388608x12_1_0_0_1_n_n none (maximumf (addf (Host.dotGeneral dot_S8388608x12_S12x12_S8388608x12_1_0_0_1_n_n none (maximumf (addf (Host.dotGeneral dot_S8388608x12_S12x12_S8388608x12_1_0_0_1_n_n none (maximumf (addf (Host.dotGeneral dot_S8388608x12_S12x12_S8388608x12_1_0_0_1_n_n none (addf (Host.dotGeneral dot_S8388608x7_S7x12_S8388608x12_1_0_0_1_n_n none (shapeCast _ a0 shapeCasts_S32768x256x7_S8388608x7) a1) (broadcastInDim S8388608x12 ![0, 1] bcast_S1x12_S8388608x12_0_1 (broadcastInDim S1x12 ![1] bcast_S12_S1x12_1 a2))) a3) (broadcastInDim S8388608x12 ![0, 1] bcast_S1x12_S8388608x12_0_1 (broadcastInDim S1x12 ![1] bcast_S12_S1x12_1 a4))) (broadcastInDim S8388608x12 ![] bcast_S_S8388608x12 (constant S_ .f32 0x00000000#32))) a5) (broadcastInDim S8388608x12 ![0, 1] bcast_S1x12_S8388608x12_0_1 (broadcastInDim S1x12 ![1] bcast_S12_S1x12_1 a6))) (broadcastInDim S8388608x12 ![] bcast_S_S8388608x12 (constant S_ .f32 0x00000000#32))) a7) (broadcastInDim S8388608x12 ![0, 1] bcast_S1x12_S8388608x12_0_1 (broadcastInDim S1x12 ![1] bcast_S12_S1x12_1 a8))) (broadcastInDim S8388608x12 ![] bcast_S_S8388608x12 (constant S_ .f32 0x00000000#32))) a9) (broadcastInDim S8388608x12 ![0, 1] bcast_S1x12_S8388608x12_0_1 (broadcastInDim S1x12 ![1] bcast_S12_S1x12_1 a10))) (broadcastInDim S8388608x12 ![] bcast_S_S8388608x12 (constant S_ .f32 0x00000000#32))) a11) (broadcastInDim S8388608x6 ![0, 1] bcast_S1x6_S8388608x6_0_1 (broadcastInDim S1x6 ![1] bcast_S6_S1x6_1 a12))) a13) (broadcastInDim S8388608x1 ![0, 1] bcast_S1x1_S8388608x1_0_1 (broadcastInDim S1x1 ![1] bcast_S1_S1x1_1 a14))) shapeCasts_S8388608x1_S32768x256 : FVec Ideal S32768x256 .f32)
      = result shapeCasts_S32768x256x7_S8388608x7 shapeCasts_S8388608x1_S32768x256 a0 a1 a2 a3 a4 a5 a6 a7 a8 a9 a10 a11 a12 a13 a14 := by
  unfold result mlp
  rw [host_layer dot_S8388608x7_S7x12_S8388608x12_1_0_0_1_n_n rfl,
    host_layer dot_S8388608x12_S12x12_S8388608x12_1_0_0_1_n_n rfl, host_relu,
    host_layer dot_S8388608x12_S12x12_S8388608x12_1_0_0_1_n_n rfl, host_relu,
    host_layer dot_S8388608x12_S12x12_S8388608x12_1_0_0_1_n_n rfl, host_relu,
    host_layer dot_S8388608x12_S12x12_S8388608x12_1_0_0_1_n_n rfl, host_relu,
    host_layer dot_S8388608x12_S12x6_S8388608x6_1_0_0_1_n_n rfl,
    host_layer dot_S8388608x6_S6x1_S8388608x1_1_0_0_1_n_n rfl]

end Cert.ReferenceIdeal.RefValue

end
-- ==== Proof.lean ====
/-
  The kernel applies a seven-layer perceptron (one linear layer, four rectified layers, two linear layers) to each of the
  `8388608` rows of the re-laid input, `131072` rows per grid point; the reference applies the same perceptron to all rows
  at once. On the extended reals both results are the same function of the fifteen arguments, `Cert.Mlp.result`: every layer
  and the rectifier act row by row, so the blocks the kernel writes are the blocks of the reference's column. No law of
  arithmetic beyond that is used, so the precondition is never opened.

  The three frames are the programs' runs with the result dropped; the idealization rewrote nothing, so `preserves` is
  trivial; `algebraic` sets the idealized kernel's run beside the reference's run, both ending at `Cert.Mlp.result`.
-/
import proofs.«106773_j73864847557074_1_alg».proof.Defs
import proofs.«106773_j73864847557074_1_alg».proof.Proof.Gen.Kernel
import proofs.«106773_j73864847557074_1_alg».proof.Proof.Gen.Kernel.Skeleton
import proofs.«106773_j73864847557074_1_alg».proof.Proof.Gen.Kernel.Launch
import proofs.«106773_j73864847557074_1_alg».proof.Proof.Gen.Kernel.Points
import proofs.«106773_j73864847557074_1_alg».proof.Proof.Gen.Kernel.Frame
import proofs.«106773_j73864847557074_1_alg».proof.Proof.Gen.KernelIdeal
import proofs.«106773_j73864847557074_1_alg».proof.Proof.Gen.KernelIdeal.Skeleton
import proofs.«106773_j73864847557074_1_alg».proof.Proof.Gen.KernelIdeal.Launch
import proofs.«106773_j73864847557074_1_alg».proof.Proof.Gen.KernelIdeal.Points
import proofs.«106773_j73864847557074_1_alg».proof.Proof.Gen.KernelIdeal.Frame
import proofs.«106773_j73864847557074_1_alg».proof.Proof.Gen.ReferenceIdeal
import proofs.«106773_j73864847557074_1_alg».proof.Proof.Gen.ReferenceIdeal.Run
import proofs.«106773_j73864847557074_1_alg».proof.Proof.Gen.Pre_finite_inputs
import proofs.«106773_j73864847557074_1_alg».proof.Proof.KernelValue
import proofs.«106773_j73864847557074_1_alg».proof.Proof.RefSide
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the perceptron of the re-laid input, re-laid: the kernel block of rows by block of rows,
    the reference on all rows at once. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]
  exact Cert.ReferenceIdeal.RefValue.term_eq _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
